-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S_ : Shape := ⟨0, ![]⟩

class Facts : Prop where
  bcast_S_S16x64x2048 : S_.BroadcastsInDim S16x64x2048 (![] : Fin 0 → Fin S16x64x2048.rank)
  reducesTo_S16x64x2048_S_d0_1_2 : S16x64x2048.ReducesTo [0, 1, 2] S_
  h_S_ : 0 < S_.numel
  bcast_S_S16x2048x8192 : S_.BroadcastsInDim S16x2048x8192 (![] : Fin 0 → Fin S16x2048x8192.rank)
  reducesTo_S16x2048x8192_S_d0_1_2 : S16x2048x8192.ReducesTo [0, 1, 2] S_
  bcast_S_S16x4096x2048 : S_.BroadcastsInDim S16x4096x2048 (![] : Fin 0 → Fin S16x4096x2048.rank)
  reducesTo_S16x4096x2048_S_d0_1_2 : S16x4096x2048.ReducesTo [0, 1, 2] S_

variable [Facts]

def fn {F : FTy → Type} [FloatOps F] (main_arg0 : FVec F S16x64x2048 .f32) (main_arg1 : FVec F S16x2048x8192 .f32) (main_arg2 : FVec F S16x4096x2048 .f32) : IVec S_ 1 :=
  let main_v0 : FVec F S16x64x2048 .f32 := Host.absf main_arg0
  let main_cst : FVec F S_ .f32 := constant S_ .f32 0x7F800000#32
  let main_v1 : FVec F S16x64x2048 .f32 := broadcastInDim S16x64x2048 ![] bcast_S_S16x64x2048 main_cst
  let main_v2 : IVec S16x64x2048 1 := cmpf .olt main_v0 main_v1
  let main_c : IVec S_ 1 := constantI S_ 1 1#1
  let main_v3 : IVec S_ 1 := (fun x v => Host.reduce IntOp.andi x v reducesTo_S16x64x2048_S_d0_1_2 h_S_) main_v2 main_c
  let main_v4 : FVec F S16x2048x8192 .f32 := Host.absf main_arg1
  let main_cst_0 : FVec F S_ .f32 := constant S_ .f32 0x7F800000#32
  let main_v5 : FVec F S16x2048x8192 .f32 := broadcastInDim S16x2048x8192 ![] bcast_S_S16x2048x8192 main_cst_0
  let main_v6 : IVec S16x2048x8192 1 := cmpf .olt main_v4 main_v5
  let main_c_1 : IVec S_ 1 := constantI S_ 1 1#1
  let main_v7 : IVec S_ 1 := (fun x v => Host.reduce IntOp.andi x v reducesTo_S16x2048x8192_S_d0_1_2 h_S_) main_v6 main_c_1
  let main_v8 : IVec S_ 1 := andi main_v3 main_v7
  let main_v9 : FVec F S16x4096x2048 .f32 := Host.absf main_arg2
  let main_cst_2 : FVec F S_ .f32 := constant S_ .f32 0x7F800000#32
  let main_v10 : FVec F S16x4096x2048 .f32 := broadcastInDim S16x4096x2048 ![] bcast_S_S16x4096x2048 main_cst_2
  let main_v11 : IVec S16x4096x2048 1 := cmpf .olt main_v9 main_v10
  let main_c_3 : IVec S_ 1 := constantI S_ 1 1#1
  let main_v12 : IVec S_ 1 := (fun x v => Host.reduce IntOp.andi x v reducesTo_S16x4096x2048_S_d0_1_2 h_S_) main_v11 main_c_3
  let main_v13 : IVec S_ 1 := andi main_v8 main_v12
  main_v13
-- ==== Kernel.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S1x64x2048 : Shape := ⟨3, ![1, 64, 2048]⟩
abbrev S1x2048x1024 : Shape := ⟨3, ![1, 2048, 1024]⟩
abbrev S1x1024x2048 : Shape := ⟨3, ![1, 1024, 2048]⟩
abbrev S64x2048 : Shape := ⟨2, ![64, 2048]⟩
abbrev S2048x1024 : Shape := ⟨2, ![2048, 1024]⟩
abbrev S1024x2048 : Shape := ⟨2, ![1024, 2048]⟩
abbrev S64x1024 : Shape := ⟨2, ![64, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16x64x2048, .f32⟩
  | .hbm, ⟨1, _⟩ => ⟨S16x2048x8192, .f32⟩
  | .hbm, ⟨2, _⟩ => ⟨S16x4096x2048, .f32⟩
  | .hbm, ⟨3, _⟩ => ⟨S16x64x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S1x64x2048, .f32⟩
  | .local _ .vmem, ⟨9, _⟩ => ⟨S1x64x2048, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  dot_S64x2048_S2048x1024_S64x1024_1_0_0_1_n_n_wf : DotDims.WF S64x2048 S2048x1024 S64x1024 [1] [0] [0] [1] [] []
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S16x64x2048.size a
  hwx0_0 : ∀ i : grid0.Coords, EltTy.bits .f32 = 32 ∨ (Rect.block (s := S16x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x8192.size a
  hwx0_1 : ∀ i : grid0.Coords, EltTy.bits .f32 = 32 ∨ (Rect.block (s := S16x2048x8192) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x8192.size a
  hwx0_2 : ∀ i : grid0.Coords, EltTy.bits .f32 = 32 ∨ (Rect.block (s := S16x2048x8192) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x4096x2048.size a
  hwx0_3 : ∀ i : grid0.Coords, EltTy.bits .f32 = 32 ∨ (Rect.block (s := S16x4096x2048) S1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S16x64x2048.size a
  hwx0_4 : ∀ i : grid0.Coords, EltTy.bits .f32 = 32 ∨ (Rect.block (s := S16x64x2048) S1x64x2048.size (cc0_transform_4 i) (hinb0_4 i)).WholeWords (EltTy.packing .f32)

variable [Facts₀]

def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S16x64x8192 : Shape := ⟨3, ![16, 64, 8192]⟩
abbrev S16x64x4096 : Shape := ⟨3, ![16, 64, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S16x2048x8192, .f32⟩
  | .hbm, ⟨2, _⟩ => ⟨S16x4096x2048, .f32⟩
  | .hbm, ⟨3, _⟩ => ⟨S16x64x8192, .f32⟩
  | .hbm, ⟨4, _⟩ => ⟨S16x64x4096, .f32⟩
  | .hbm, ⟨5, _⟩ => ⟨S16x64x4096, .f32⟩
  | .hbm, ⟨6, _⟩ => ⟨S16x64x4096, .f32⟩
  | .hbm, ⟨7, _⟩ => ⟨S16x64x4096, .f32⟩
  | .hbm, ⟨8, _⟩ => ⟨S_, .f32⟩
  | .hbm, ⟨9, _⟩ => ⟨S16x64x4096, .f32⟩
  | .hbm, ⟨10, _⟩ => ⟨S16x64x4096, .f32⟩
  | .hbm, ⟨11, _⟩ => ⟨S_, .f32⟩
  | .hbm, ⟨12, _⟩ => ⟨S16x64x4096, .f32⟩
  | .hbm, ⟨13, _⟩ => ⟨S16x64x4096, .f32⟩
  | .hbm, ⟨14, _⟩ => ⟨S16x64x4096, .f32⟩
  | .hbm, ⟨15, _⟩ => ⟨S16x64x4096, .f32⟩
  | .hbm, ⟨16, _⟩ => ⟨S16x64x2048, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S16x64x8192_S16x64x4096_0_0_0 : S16x64x8192.Slices ![0, 0, 0] S16x64x4096
  slices_S16x64x8192_S16x64x4096_0_0_4096 : S16x64x8192.Slices ![0, 0, 4096] S16x64x4096
  bcast_S_S16x64x4096 : S_.BroadcastsInDim S16x64x4096 (![] : Fin 0 → Fin S16x64x4096.rank)
  dot_S16x64x2048_S16x2048x8192_S16x64x8192_2_1_1_2_0_0_wf : DotDims.WF S16x64x2048 S16x2048x8192 S16x64x8192 [2] [1] [1] [2] [0] [0]
  dot_S16x64x4096_S16x4096x2048_S16x64x2048_2_1_1_2_0_0_wf : DotDims.WF S16x64x4096 S16x4096x2048 S16x64x2048 [2] [1] [1] [2] [0] [0]

variable [Facts₀]

def dot_S16x64x2048_S16x2048x8192_S16x64x8192_2_1_1_2_0_0 : DotDims S16x64x2048 S16x2048x8192 S16x64x8192 where
  lhsContracting := [2]
  rhsContracting := [1]
  lhsNonContracting := [1]
  rhsNonContracting := [2]
  lhsBatch := [0]
  rhsBatch := [0]
  wf := dot_S16x64x2048_S16x2048x8192_S16x64x8192_2_1_1_2_0_0_wf
def dot_S16x64x4096_S16x4096x2048_S16x64x2048_2_1_1_2_0_0 : DotDims S16x64x4096 S16x4096x2048 S16x64x2048 where
  lhsContracting := [2]
  rhsContracting := [1]
  lhsNonContracting := [1]
  rhsNonContracting := [2]
  lhsBatch := [0]
  rhsBatch := [0]
  wf := dot_S16x64x4096_S16x4096x2048_S16x64x2048_2_1_1_2_0_0_wf

class Facts : Prop extends Facts₀ where

variable [Facts]
-- ==== Proof.KBitsSetup.lean ====
/-
  The frame of the program: what its proof shares. The region is entered with the arrays as launched; window `w`'s
  block at grid point `t` is the part of its array the index map selects there; an input window's staging buffer
  holds that block at every point, whether the point fetches it or not (the index has not moved since the fetch);
  the body's one branch (the reset of the accumulator) is taken exactly at the points whose second coordinate is 0,
  the points ≡ 0 (mod 4) of the 16 × 4 grid walked in order.
-/
import proofs.«159379_j64244120814198_2_alg».proof.Proof.Gen.Kernel.Launch
import proofs.«159379_j64244120814198_2_alg».proof.Proof.Gen.Kernel.Skeleton
import proofs.«159379_j64244120814198_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the program is the region alone). -/
abbrev V (c : Dev nD) (b : Ref sig .tc) : Buf (Elt F) ((c : Thread nD τ).loc b) := m ((c : Thread nD τ).loc b)

/-- The program up to the region: nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The condition of the body's branch, from the grid coordinates: the second coordinate is 0. -/
abbrev isFirstTile (i : grid0.Coords) : Prop := (Scalar.cmpi .ne (Scalar.extui (Scalar.cmpi .eq (BitVec.ofNat 32 (i 1).val) 0#32)) 0#32) = 1#1
/-- It holds at the points ≡ 0 (mod 4). -/
theorem isFirstTile_iff : ∀ t : Fin cfg0.N, isFirstTile (grid0.coords t) ↔ t.val % 4 = 0 :=
  (by decide +kernel : ∀ t : Fin grid0.N, isFirstTile (grid0.coords t) ↔ t.val % 4 = 0)

/-- One staging buffer of the output window, through which its contents are stated. -/
abbrev VOut : View sig .tc .vmem S1x64x2048 .f32 := (Memref.whole cc0_stg4_0 : Memref sig .tc .vmem S1x64x2048 .f32).view
/-- Each window's current staging memref at point `t`, as the pipeline passes it, and its wholeness. -/
abbrev ms0 (t : Fin cfg0.N) : Memref sig .tc .vmem S1x64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x2048 .f32 := win0_4.stage (cfg0.slots t 4)
abbrev hs4 (t : Fin cfg0.N) : (ms4 t).IsWhole := hstage0_4 ((cfg0.slots t 4).cast nbuf0_4)

end Cert.Kernel.Hand

end
-- ==== Proof.KBitsRunFirst.lean ====
/-
  The body at a point that opens an expert's reduction (second grid coordinate 0): it stores zeros over the whole
  accumulator block, loads the four input blocks, reads the accumulator back and stores the block's new contents over
  it. Run on any whole staging memrefs: the inputs' at their contents, the accumulator's at anything; the pieces its two
  stores leave in the accumulator's buffer are what the run finds.
-/
import proofs.«159379_j64244120814198_2_alg».proof.Proof.KBitsSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the accumulator's staging memref, as pieces (last first), with the proof that on
    whole staging memrefs the body runs to the continuation holding the inputs' buffers as they were and the
    accumulator's with those pieces written. -/
noncomputable def kernelRunFirst (c : Dev nD) (i : grid0.Coords)
    (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) :
    { L : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBitsRunLater.lean ====
/-
  The body at a later point of an expert's reduction (second grid coordinate not 0): it loads the four input blocks,
  reads the accumulator as the point before left it and stores the block's new contents over it. Run on any whole
  staging memrefs: the inputs' at their contents, the accumulator's at its running contents; the piece its one store
  leaves in the accumulator's buffer is what the run finds.
-/
import proofs.«159379_j64244120814198_2_alg».proof.Proof.KBitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the accumulator's staging memref, as pieces (last first), with the proof that on
    whole staging memrefs the body runs to the continuation holding the inputs' buffers as they were and the
    accumulator's with those pieces written. -/
noncomputable def kernelRunLater (c : Dev nD) (i : grid0.Coords)
    (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) :
    { L : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBitsFrame.lean ====
/-
  The frame of the program. What the accumulator's staging buffer holds after each grid point, by recursion on the
  point: at a point that opens an expert's reduction the opening run's pieces, at a later one the later run's pieces over
  what the point before left (the buffer is not written back in between: the write-back is at the expert's last tile).
  The proof data: the arrays as launched; after the body each input's buffer at its block and the accumulator's at that
  recursion; the two windows on the gate|up array hold it at the two halves of its full share, every other window its
  array whole. The body meets its obligation at every point, and the region's launch rule gives the run: every weakly
  fair execution terminates, each array ending at what the write-backs computed from the proof data — an input array
  at its launch contents.
-/
import proofs.«159379_j64244120814198_2_alg».proof.Proof.KBitsRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The opening run's two stores tile the accumulator's block. -/
theorem coverFirst (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) (y : S1x64x2048.Idx) :
    ∃ pc ∈ (kernelRunFirst c i arg2 harg2 arg3 harg3 arg4 harg4 arg5 harg5 arg6 harg6 hc0 x0 x1 x2 x3).1, y ∈ pc.1.set :=
  View.cover_of_tiledL (kernelRunFirst c i arg2 harg2 arg3 harg3 arg4 harg4 arg5 harg5 arg6 harg6 hc0 x0 x1 x2 x3).1 S1x64x2048.size (by sl_kernel_rfl) y

/-- What the opening run leaves in the accumulator's buffer: its pieces read back. -/
def outFirst (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) : Vec F S1x64x2048 .f32 :=
  VOut.read (Elt F) (VOut.writes (Elt F) VOut.junk (kernelRunFirst c i arg2 harg2 arg3 harg3 arg4 harg4 arg5 harg5 arg6 harg6 hc0 x0 x1 x2 x3).1)

/-- A later run's one store covers the accumulator's block. -/
theorem coverLater (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) (y : S1x64x2048.Idx) :
    ∃ pc ∈ (kernelRunLater c i arg2 harg2 arg3 harg3 arg4 harg4 arg5 harg5 arg6 harg6 hc0 x0 x1 x2 x3 xo).1, y ∈ pc.1.set :=
  View.cover_of_tiledL (kernelRunLater c i arg2 harg2 arg3 harg3 arg4 harg4 arg5 harg5 arg6 harg6 hc0 x0 x1 x2 x3 xo).1 S1x64x2048.size (by sl_kernel_rfl) y

/-- What a later run leaves in the accumulator's buffer: its piece read back. -/
def outLater (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) : Vec F S1x64x2048 .f32 :=
  VOut.read (Elt F) (VOut.writes (Elt F) VOut.junk (kernelRunLater c i arg2 harg2 arg3 harg3 arg4 harg4 arg5 harg5 arg6 harg6 hc0 x0 x1 x2 x3 xo).1)

/-! ## The accumulator after each point -/

/-- What the accumulator's staging buffer holds after the body at position `n`. -/
def accAt (c : Dev nD) : (n : ℕ) → n < cfg0.N → Vec F S1x64x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirstTile_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirstTile_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirstTile_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a point that opens a reduction: the opening run's contents. -/
theorem accAt_first (c : Dev nD) (t : Fin cfg0.N) (h0 : t.val % 4 = 0) :
    accAt m c t.val t.isLt = outFirst c (grid0.coords t) (ms0 t) (hs0 t) (ms1 t) (hs1 t) (ms2 t) (hs2 t) (ms3 t) (hs3 t) (ms4 t) (hs4 t) ((isFirstTile_iff t).mpr h0) (iblk m c 0 t) (iblk m c 1 t) (iblk m c 2 t) (iblk m c 3 t) := by
  obtain ⟨n, hn⟩ := t
  cases n with
  | zero => exact rfl
  | succ n => exact (dif_pos h0).trans rfl

/-- At a later point: the later run's contents, over what the point before left. -/
theorem accAt_later (c : Dev nD) (t : Fin cfg0.N) (h0 : ¬t.val % 4 = 0) :
    accAt m c t.val t.isLt = outLater c (grid0.coords t) (ms0 t) (hs0 t) (ms1 t) (hs1 t) (ms2 t) (hs2 t) (ms3 t) (hs3 t) (ms4 t) (hs4 t) (fun h => h0 ((isFirstTile_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The region's invariant: the core's scoped buffers that are no staging buffer, at some contents (the body uses none). -/
abbrev Inv (c : Dev nD) : sProp 𝕄 := Pipeline.scopedRest (Ix := Unit) (Name := ℕ) (U := UR sig nD τ) (Lvl := ℕ) (Val := Elt F) spec0 c

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Inv c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
/-- At a later point of a reduction the accumulator's buffer holds what the body left at the point before: the buffer
    was not written back in between (the write-back is at the points ≡ 3 mod 4). -/
theorem before4_later (c : Dev nD) (t : Fin cfg0.N) (h0 : ¬t.val % 4 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the point either opens a reduction or continues one,
    and then the accumulator's buffer holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 64 := lt_of_lt_of_eq t.isLt (show cfg0.N = 64 from N_0)
  by_cases h0 : t.val % 4 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((kernelRunFirst c (grid0.coords t) _ _ _ _ _ _ _ _ _ _ ((isFirstTile_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [accAt_later m c t h0]
    simp only [before4_later m c t h0]
    unfold outLater
    iintro ⟨HΦ, Ho, ⟨%d0, H0⟩, ⟨%d1, H1⟩, ⟨%d2, H2⟩, ⟨%d3, H3⟩, ⟨%d4, H4⟩⟩
    iapply ((kernelRunLater c (grid0.coords t) _ _ _ _ _ _ _ _ _ _ (fun h => h0 ((isFirstTile_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The arrays at entry: the gate|up array dealt between its two windows -/

/-- The buffers behind the windows' arrays: the three arguments and the result. -/
theorem arrRefs_eq : Finset.univ.image (Pipeline.arrRef spec0) = [main_arg0, main_arg1, main_arg2, main_v0].toFinset := by decide

/-- A conjunction over those four buffers, one by one. -/
theorem bigSep_arrRefs {M : Type} [URA M] (Φ : Ref sig .tc → sProp M) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] arrRefs_eq (by decide) Φ

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The four buffers, each whole at the full share, make the five windows' arrays at their shares: the gate|up
    array's full share is the sum of its two halves, one per window on it. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrRefs, bigSep_W0]
  rw [(arr_whole0 0).set_eq_univ, (arr_whole0 1).set_eq_univ, (arr_whole0 3).set_eq_univ, (arr_whole0 4).set_eq_univ,
    share0, share1, share2, share3, share4]
  iintro ⟨H0, H1, H2, H3⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  iexact H3

/-! ## The run -/

set_option backward.isDefEq.respectTransparency.types false in
/-- From any memory with zero counters every weakly fair execution of the program terminates, and in every final
    state each window's array holds what the write-backs computed from the proof data. -/
theorem run_main : θ_run defs (onTc (τ := τ) (main (F := F))) (s₀ m ρ)
    (fun r => ∀ c : Dev nD, ∀ w : Fin cfg0.W, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := arrays_entry m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by dsimp only [dats]; iintro ⟨-, H⟩; iexact H)
    (hout := fun c => by dsimp only [dats]; iintro H; isplitr; · iempintro
                         iexact H)
    (QY := fun _ _ => True)
    (hY := fun c s' => by iintro ⟨-, -, HSI⟩; imodintro; isplitr; · ipureintro; trivial
                          iexact HSI)
    (hQ := fun s h c w => (h c).1 w)

end Cert.Kernel.Hand

end
-- ==== Proof.KIdealSetup.lean ====
/-
  The frame of the program: what its proof shares. The region is entered with the arrays as launched; window `w`'s
  block at grid point `t` is the part of its array the index map selects there; an input window's staging buffer
  holds that block at every point, whether the point fetches it or not (the index has not moved since the fetch);
  the body's one branch (the reset of the accumulator) is taken exactly at the points whose second coordinate is 0,
  the points ≡ 0 (mod 4) of the 16 × 4 grid walked in order.
-/
import proofs.«159379_j64244120814198_2_alg».proof.Proof.Gen.KernelIdeal.Launch
import proofs.«159379_j64244120814198_2_alg».proof.Proof.Gen.KernelIdeal.Skeleton
import proofs.«159379_j64244120814198_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the program is the region alone). -/
abbrev V (c : Dev nD) (b : Ref sig .tc) : Buf (Elt F) ((c : Thread nD τ).loc b) := m ((c : Thread nD τ).loc b)

/-- The program up to the region: nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The condition of the body's branch, from the grid coordinates: the second coordinate is 0. -/
abbrev isFirstTile (i : grid0.Coords) : Prop := (Scalar.cmpi .ne (Scalar.extui (Scalar.cmpi .eq (BitVec.ofNat 32 (i 1).val) 0#32)) 0#32) = 1#1
/-- It holds at the points ≡ 0 (mod 4). -/
theorem isFirstTile_iff : ∀ t : Fin cfg0.N, isFirstTile (grid0.coords t) ↔ t.val % 4 = 0 :=
  (by decide +kernel : ∀ t : Fin grid0.N, isFirstTile (grid0.coords t) ↔ t.val % 4 = 0)

/-- One staging buffer of the output window, through which its contents are stated. -/
abbrev VOut : View sig .tc .vmem S1x64x2048 .f32 := (Memref.whole cc0_stg4_0 : Memref sig .tc .vmem S1x64x2048 .f32).view
/-- Each window's current staging memref at point `t`, as the pipeline passes it, and its wholeness. -/
abbrev ms0 (t : Fin cfg0.N) : Memref sig .tc .vmem S1x64x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x2048 .f32 := win0_4.stage (cfg0.slots t 4)
abbrev hs4 (t : Fin cfg0.N) : (ms4 t).IsWhole := hstage0_4 ((cfg0.slots t 4).cast nbuf0_4)

end Cert.KernelIdeal.Hand

end
-- ==== Proof.KIdealRunFirst.lean ====
/-
  The body at a point that opens an expert's reduction (second grid coordinate 0): it stores zeros over the whole
  accumulator block, loads the four input blocks, reads the accumulator back and stores the block's new contents over
  it. Run on any whole staging memrefs: the inputs' at their contents, the accumulator's at anything; the pieces its two
  stores leave in the accumulator's buffer are what the run finds.
-/
import proofs.«159379_j64244120814198_2_alg».proof.Proof.KIdealSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the accumulator's staging memref, as pieces (last first), with the proof that on
    whole staging memrefs the body runs to the continuation holding the inputs' buffers as they were and the
    accumulator's with those pieces written. -/
noncomputable def kernelRunFirst (c : Dev nD) (i : grid0.Coords)
    (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) :
    { L : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIdealRunLater.lean ====
/-
  The body at a later point of an expert's reduction (second grid coordinate not 0): it loads the four input blocks,
  reads the accumulator as the point before left it and stores the block's new contents over it. Run on any whole
  staging memrefs: the inputs' at their contents, the accumulator's at its running contents; the piece its one store
  leaves in the accumulator's buffer is what the run finds.
-/
import proofs.«159379_j64244120814198_2_alg».proof.Proof.KIdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the accumulator's staging memref, as pieces (last first), with the proof that on
    whole staging memrefs the body runs to the continuation holding the inputs' buffers as they were and the
    accumulator's with those pieces written. -/
noncomputable def kernelRunLater (c : Dev nD) (i : grid0.Coords)
    (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) :
    { L : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIdealFrame.lean ====
/-
  The frame of the program. What the accumulator's staging buffer holds after each grid point, by recursion on the
  point: at a point that opens an expert's reduction the opening run's pieces, at a later one the later run's pieces over
  what the point before left (the buffer is not written back in between: the write-back is at the expert's last tile).
  The proof data: the arrays as launched; after the body each input's buffer at its block and the accumulator's at that
  recursion; the two windows on the gate|up array hold it at the two halves of its full share, every other window its
  array whole. The body meets its obligation at every point, and the region's launch rule gives the run: every weakly
  fair execution terminates, each array ending at what the write-backs computed from the proof data — an input array
  at its launch contents.
-/
import proofs.«159379_j64244120814198_2_alg».proof.Proof.KIdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The opening run's two stores tile the accumulator's block. -/
theorem coverFirst (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) (y : S1x64x2048.Idx) :
    ∃ pc ∈ (kernelRunFirst c i arg2 harg2 arg3 harg3 arg4 harg4 arg5 harg5 arg6 harg6 hc0 x0 x1 x2 x3).1, y ∈ pc.1.set :=
  View.cover_of_tiledL (kernelRunFirst c i arg2 harg2 arg3 harg3 arg4 harg4 arg5 harg5 arg6 harg6 hc0 x0 x1 x2 x3).1 S1x64x2048.size (by sl_kernel_rfl) y

/-- What the opening run leaves in the accumulator's buffer: its pieces read back. -/
def outFirst (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) : Vec F S1x64x2048 .f32 :=
  VOut.read (Elt F) (VOut.writes (Elt F) VOut.junk (kernelRunFirst c i arg2 harg2 arg3 harg3 arg4 harg4 arg5 harg5 arg6 harg6 hc0 x0 x1 x2 x3).1)

/-- A later run's one store covers the accumulator's block. -/
theorem coverLater (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) (y : S1x64x2048.Idx) :
    ∃ pc ∈ (kernelRunLater c i arg2 harg2 arg3 harg3 arg4 harg4 arg5 harg5 arg6 harg6 hc0 x0 x1 x2 x3 xo).1, y ∈ pc.1.set :=
  View.cover_of_tiledL (kernelRunLater c i arg2 harg2 arg3 harg3 arg4 harg4 arg5 harg5 arg6 harg6 hc0 x0 x1 x2 x3 xo).1 S1x64x2048.size (by sl_kernel_rfl) y

/-- What a later run leaves in the accumulator's buffer: its piece read back. -/
def outLater (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) : Vec F S1x64x2048 .f32 :=
  VOut.read (Elt F) (VOut.writes (Elt F) VOut.junk (kernelRunLater c i arg2 harg2 arg3 harg3 arg4 harg4 arg5 harg5 arg6 harg6 hc0 x0 x1 x2 x3 xo).1)

/-! ## The accumulator after each point -/

/-- What the accumulator's staging buffer holds after the body at position `n`. -/
def accAt (c : Dev nD) : (n : ℕ) → n < cfg0.N → Vec F S1x64x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirstTile_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirstTile_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirstTile_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a point that opens a reduction: the opening run's contents. -/
theorem accAt_first (c : Dev nD) (t : Fin cfg0.N) (h0 : t.val % 4 = 0) :
    accAt m c t.val t.isLt = outFirst c (grid0.coords t) (ms0 t) (hs0 t) (ms1 t) (hs1 t) (ms2 t) (hs2 t) (ms3 t) (hs3 t) (ms4 t) (hs4 t) ((isFirstTile_iff t).mpr h0) (iblk m c 0 t) (iblk m c 1 t) (iblk m c 2 t) (iblk m c 3 t) := by
  obtain ⟨n, hn⟩ := t
  cases n with
  | zero => exact rfl
  | succ n => exact (dif_pos h0).trans rfl

/-- At a later point: the later run's contents, over what the point before left. -/
theorem accAt_later (c : Dev nD) (t : Fin cfg0.N) (h0 : ¬t.val % 4 = 0) :
    accAt m c t.val t.isLt = outLater c (grid0.coords t) (ms0 t) (hs0 t) (ms1 t) (hs1 t) (ms2 t) (hs2 t) (ms3 t) (hs3 t) (ms4 t) (hs4 t) (fun h => h0 ((isFirstTile_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The region's invariant: the core's scoped buffers that are no staging buffer, at some contents (the body uses none). -/
abbrev Inv (c : Dev nD) : sProp 𝕄 := Pipeline.scopedRest (Ix := Unit) (Name := ℕ) (U := UR sig nD τ) (Lvl := ℕ) (Val := Elt F) spec0 c

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Inv c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
/-- At a later point of a reduction the accumulator's buffer holds what the body left at the point before: the buffer
    was not written back in between (the write-back is at the points ≡ 3 mod 4). -/
theorem before4_later (c : Dev nD) (t : Fin cfg0.N) (h0 : ¬t.val % 4 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the point either opens a reduction or continues one,
    and then the accumulator's buffer holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 64 := lt_of_lt_of_eq t.isLt (show cfg0.N = 64 from N_0)
  by_cases h0 : t.val % 4 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((kernelRunFirst c (grid0.coords t) _ _ _ _ _ _ _ _ _ _ ((isFirstTile_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [accAt_later m c t h0]
    simp only [before4_later m c t h0]
    unfold outLater
    iintro ⟨HΦ, Ho, ⟨%d0, H0⟩, ⟨%d1, H1⟩, ⟨%d2, H2⟩, ⟨%d3, H3⟩, ⟨%d4, H4⟩⟩
    iapply ((kernelRunLater c (grid0.coords t) _ _ _ _ _ _ _ _ _ _ (fun h => h0 ((isFirstTile_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The arrays at entry: the gate|up array dealt between its two windows -/

/-- The buffers behind the windows' arrays: the three arguments and the result. -/
theorem arrRefs_eq : Finset.univ.image (Pipeline.arrRef spec0) = [main_arg0, main_arg1, main_arg2, main_v0].toFinset := by decide

/-- A conjunction over those four buffers, one by one. -/
theorem bigSep_arrRefs {M : Type} [URA M] (Φ : Ref sig .tc → sProp M) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] arrRefs_eq (by decide) Φ

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The four buffers, each whole at the full share, make the five windows' arrays at their shares: the gate|up
    array's full share is the sum of its two halves, one per window on it. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrRefs, bigSep_W0]
  rw [(arr_whole0 0).set_eq_univ, (arr_whole0 1).set_eq_univ, (arr_whole0 3).set_eq_univ, (arr_whole0 4).set_eq_univ,
    share0, share1, share2, share3, share4]
  iintro ⟨H0, H1, H2, H3⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  iexact H3

/-! ## The run -/

set_option backward.isDefEq.respectTransparency.types false in
/-- From any memory with zero counters every weakly fair execution of the program terminates, and in every final
    state each window's array holds what the write-backs computed from the proof data. -/
theorem run_main : θ_run defs (onTc (τ := τ) (main (F := F))) (s₀ m ρ)
    (fun r => ∀ c : Dev nD, ∀ w : Fin cfg0.W, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := arrays_entry m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by dsimp only [dats]; iintro ⟨-, H⟩; iexact H)
    (hout := fun c => by dsimp only [dats]; iintro H; isplitr; · iempintro
                         iexact H)
    (QY := fun _ _ => True)
    (hY := fun c s' => by iintro ⟨-, -, HSI⟩; imodintro; isplitr; · ipureintro; trivial
                          iexact HSI)
    (hQ := fun s h c w => (h c).1 w)

end Cert.KernelIdeal.Hand

end
-- ==== Proof.MoeSpec.lean ====
/-
  The function both programs compute, on the extended reals.

  Arrays: `hid` of shape [16, 64, 2048] (experts × tokens × hidden), `gu` of shape [16, 2048, 8192] (per expert, the
  gate projection in columns 0 … 4095 and the up projection in columns 4096 … 8191), `dn` of shape [16, 4096, 2048].
  Per expert `e` and token `t`: `proj e t c = ∑ h, hid[e,t,h] · gu[e,h,c]`, the gate is `proj e t i` and the up value
  `proj e t (4096 + i)` for `i < 4096`, the activation `act e t i = up · (gate · σ(gate))` with `σ x = 1 / (1 + e^(-x))`,
  and the result `out[e,t,d] = ∑ i < 4096, act e t i · dn[e,i,d]`.

  The sum over the 4096 intermediate columns is also the sum over 4 tiles of 1024 columns each of the tile's own sum
  (`out_tiles`): sums over finite index sets in a commutative monoid re-index along `Fin 4 × Fin 1024 ≃ Fin 4096`.
-/
import Idealize.ShloMosaic.PureOps.Ideal
import Idealize.ShloMosaic.Lib.ValueIdx

noncomputable section

open scoped BigOperators

namespace Cert.MoeSpec

open Idealize.ShloMosaic Idealize.ShloMosaic.ValueIdx

abbrev SHid : Shape := ⟨3, ![16, 64, 2048]⟩
abbrev SGu : Shape := ⟨3, ![16, 2048, 8192]⟩
abbrev SDn : Shape := ⟨3, ![16, 4096, 2048]⟩

variable (hid : SHid.Idx → EReal) (gu : SGu.Idx → EReal) (dn : SDn.Idx → EReal)

/-- Column `c` of token `t`'s projection by expert `e`'s gate|up matrix. -/
def proj (e : Fin 16) (t : Fin 64) (c : Fin 8192) : EReal := ∑ h : Fin 2048, hid (ix3 e t h) * gu (ix3 e h c)

/-- Intermediate column `i` as a gate column, and as an up column (4096 further). -/
abbrev gateCol (i : Fin 4096) : Fin 8192 := ⟨i.val, by omega⟩
abbrev upCol (i : Fin 4096) : Fin 8192 := ⟨4096 + i.val, by omega⟩

/-- The gated activation: `up · (gate · σ(gate))`. -/
def act (e : Fin 16) (t : Fin 64) (i : Fin 4096) : EReal :=
  proj hid gu e t (upCol i) * (proj hid gu e t (gateCol i) * Ideal.logistic (proj hid gu e t (gateCol i)))

/-- Intermediate column `k` of tile `b`. -/
abbrev tileCol (b : Fin 4) (k : Fin 1024) : Fin 4096 := ⟨1024 * b.val + k.val, by omega⟩

/-- One tile's contribution to `out[e,t,d]`. -/
def tileSum (e : Fin 16) (t : Fin 64) (d : Fin 2048) (b : Fin 4) : EReal :=
  ∑ k : Fin 1024, act hid gu e t (tileCol b k) * dn (ix3 e (tileCol b k) d)

/-- The result, element by element. -/
def out : SHid.Idx → EReal := fun j => ∑ i : Fin 4096, act hid gu (j 0) (j 1) i * dn (ix3 (j 0) i (j 2))

/-- A sum over 4096 columns is the sum over the 4 tiles of each tile's 1024 columns. -/
theorem sum_tiles {M : Type} [AddCommMonoid M] (f : Fin 4096 → M) :
    ∑ i : Fin 4096, f i = ∑ b : Fin 4, ∑ k : Fin 1024, f (tileCol b k) := by
  rw [← Fintype.sum_prod_type', ← Equiv.sum_comp (finProdFinEquiv (m := 4) (n := 1024))]
  refine Finset.sum_congr rfl fun x _ => congrArg f (Fin.ext ?_)
  simp only [finProdFinEquiv_apply_val]
  omega

/-- The result as the sum of its four tiles. -/
theorem out_tiles (j : SHid.Idx) : out hid gu dn j = ∑ b : Fin 4, tileSum hid gu dn (j 0) (j 1) (j 2) b := by
  unfold out tileSum
  exact sum_tiles _

end Cert.MoeSpec

end
-- ==== Proof.LibLeadingUnitCast.lean ====
/-
  A block of shape [1, a, b] and its matrix of shape [a, b], at any extents.

  Casting between the two shapes keeps every element's row-major position, `(0 · a + p) · b + q = p · b + q`: the matrix
  reads `[p, q]` where the block reads `[0, p, q]`, and the other way round. Stated at indices built from coordinates.
-/
import Idealize.ShloMosaic.Lib.ValueIdx
import Idealize.ShloMosaic.Lib.Pipeline.Value

noncomputable section

namespace Cert.LibLeadingUnitCast

open Idealize.ShloMosaic Idealize.ShloMosaic.ValueIdx

/-! ## The two casts

Both casts keep the row-major position: `(0 · a + p) · b + q = p · b + q`. -/

/-- The matrix of a block reads `[p, q]` at the block's `[0, p, q]`. -/
theorem dropUnit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show ((0 : Nat) * a + p.val) * b + q.val = p.val * b + q.val
  rw [Nat.zero_mul, Nat.zero_add]

/-- The block of a matrix reads `[0, p, q]` at the matrix's `[p, q]`. -/
theorem addUnit_apply {a b : Nat} {α : Type} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) := by
  refine shapeCast_apply v h (ix3 (0 : Fin 1) p q) (ix2 p q) ?_
  rw [Shape.rowMajor_val_three, Shape.rowMajor_val_two]
  show p.val * b + q.val = ((0 : Nat) * a + p.val) * b + q.val
  rw [Nat.zero_mul, Nat.zero_add]

end Cert.LibLeadingUnitCast

end
-- ==== Proof.KernelPayload.lean ====
/-
  The kernel body's two stored values, read at an index, on the extended reals.

  The first is the zero block. The second, for a token block `x0` of shape [1, 64, 2048], a gate block `x1` and an up
  block `x2` of shape [1, 2048, 1024], a down block `x3` of shape [1, 1024, 2048] and the block `xo` accumulated so
  far, is at `[0, t, d]`
    `xo[0,t,d] + ∑ k < 1024, (up_k · (gate_k · σ(gate_k))) · x3[0,k,d]`,
  with `gate_k = ∑ h < 2048, x0[0,t,h] · x1[0,h,k]`, `up_k = ∑ h < 2048, x0[0,t,h] · x2[0,h,k]` and `σ` the logistic
  function: three contractions with a zero accumulator, two elementwise products, one sum, and the casts between a
  block [1, a, b] and its matrix [a, b].
-/
import proofs.«159379_j64244120814198_2_alg».proof.Proof.Gen.KernelIdeal.Skeleton
import Idealize.ShloMosaic.Lib.ValueIdx
import Idealize.ShloMosaic.Lib.Pipeline.Value
import Idealize.ShloMosaic.PureOps.Ideal.Laws
import proofs.«159379_j64244120814198_2_alg».proof.Proof.LibLeadingUnitCast

noncomputable section

open scoped BigOperators

namespace Cert.KernelIdeal.PayloadValue

open Cert.KernelIdeal Cert.KernelIdeal.Gen Cert.LibLeadingUnitCast Idealize.ShloMosaic Idealize.ShloMosaic.ValueIdx

/-! ## The contractions

The product of an [m, n] by an [n, p] matrix into a zero accumulator is, at `[i, j]`, the sum over the one contracted
axis of the products: the contraction index is its one coordinate. -/

theorem lhs1_0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide), dif_pos (show (0 : Fin S64x2048.rank) ∈ dot_S64x2048_S2048x1024_S64x1024_1_0_0_1_n_n.lhsNonContracting by decide)]
  rfl
theorem lhs1_1 (i : S64x1024.Idx) (q : dot_S64x2048_S2048x1024_S64x1024_1_0_0_1_n_n.contr.Idx) :
    (dot_S64x2048_S2048x1024_S64x1024_1_0_0_1_n_n.lhsIdx i q 1).val = (q ⟨0, by decide⟩).val :=
  dot_S64x2048_S2048x1024_S64x1024_1_0_0_1_n_n.lhsIdx_val_of_single rfl i q
theorem rhs1_0 (i : S64x1024.Idx) (q : dot_S64x2048_S2048x1024_S64x1024_1_0_0_1_n_n.contr.Idx) :
    (dot_S64x2048_S2048x1024_S64x1024_1_0_0_1_n_n.rhsIdx i q 0).val = (q ⟨0, by decide⟩).val :=
  dot_S64x2048_S2048x1024_S64x1024_1_0_0_1_n_n.rhsIdx_val_of_single rfl i q
theorem rhs1_1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide), dif_pos (show (1 : Fin S2048x1024.rank) ∈ dot_S64x2048_S2048x1024_S64x1024_1_0_0_1_n_n.rhsNonContracting by decide)]
  rfl

/-- The [64, 2048] by [2048, 1024] contraction at `[p, q]`. -/
theorem matmul1_apply (a : FVec Ideal S64x2048 .f32) (b : FVec Ideal S2048x1024 .f32) (p : Fin 64) (q : Fin 1024) :
    matmul (F := Ideal) dot_S64x2048_S2048x1024_S64x1024_1_0_0_1_n_n (some .fp32) a b (constant (F := Ideal) S64x1024 .f32 0x00000000#32) (ix2 p q)
      = ∑ h : Fin 2048, a (ix2 p h) * b (ix2 h q) := by
  refine (Ideal.matmul_constant_zero_apply dot_S64x2048_S2048x1024_S64x1024_1_0_0_1_n_n (some .fp32) a b (ix2 p q)).trans ?_
  rw [← Equiv.sum_comp (contrEquiv1 dot_S64x2048_S2048x1024_S64x1024_1_0_0_1_n_n 2048 rfl rfl).symm]
  refine Finset.sum_congr rfl fun h _ => ?_
  have hk := contrEquiv1_symm_val dot_S64x2048_S2048x1024_S64x1024_1_0_0_1_n_n 2048 rfl rfl h
  have el : dot_S64x2048_S2048x1024_S64x1024_1_0_0_1_n_n.lhsIdx (ix2 p q) ((contrEquiv1 dot_S64x2048_S2048x1024_S64x1024_1_0_0_1_n_n 2048 rfl rfl).symm h) = ix2 p h := funext fun c => Fin.ext (by
    match c with
    | ⟨0, _⟩ => exact lhs1_0 _ _
    | ⟨1, _⟩ => exact (lhs1_1 _ _).trans hk)
  have er : dot_S64x2048_S2048x1024_S64x1024_1_0_0_1_n_n.rhsIdx (ix2 p q) ((contrEquiv1 dot_S64x2048_S2048x1024_S64x1024_1_0_0_1_n_n 2048 rfl rfl).symm h) = ix2 h q := funext fun c => Fin.ext (by
    match c with
    | ⟨0, _⟩ => exact (rhs1_0 _ _).trans hk
    | ⟨1, _⟩ => exact rhs1_1 _ _)
  rw [el, er]

theorem lhs2_0 (i : S64x2048.Idx) (q : dot_S64x1024_S1024x2048_S64x2048_1_0_0_1_n_n.contr.Idx) :
    (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl
theorem lhs2_1 (i : S64x2048.Idx) (q : dot_S64x1024_S1024x2048_S64x2048_1_0_0_1_n_n.contr.Idx) :
    (dot_S64x1024_S1024x2048_S64x2048_1_0_0_1_n_n.lhsIdx i q 1).val = (q ⟨0, by decide⟩).val :=
  dot_S64x1024_S1024x2048_S64x2048_1_0_0_1_n_n.lhsIdx_val_of_single rfl i q
theorem rhs2_0 (i : S64x2048.Idx) (q : dot_S64x1024_S1024x2048_S64x2048_1_0_0_1_n_n.contr.Idx) :
    (dot_S64x1024_S1024x2048_S64x2048_1_0_0_1_n_n.rhsIdx i q 0).val = (q ⟨0, by decide⟩).val :=
  dot_S64x1024_S1024x2048_S64x2048_1_0_0_1_n_n.rhsIdx_val_of_single rfl i q
theorem rhs2_1 (i : S64x2048.Idx) (q : dot_S64x1024_S1024x2048_S64x2048_1_0_0_1_n_n.contr.Idx) :
    (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

/-- The [64, 1024] by [1024, 2048] contraction at `[p, q]`. -/
theorem matmul2_apply (a : FVec Ideal S64x1024 .f32) (b : FVec Ideal S1024x2048 .f32) (p : Fin 64) (q : Fin 2048) :
    matmul (F := Ideal) dot_S64x1024_S1024x2048_S64x2048_1_0_0_1_n_n (some .fp32) a b (constant (F := Ideal) S64x2048 .f32 0x00000000#32) (ix2 p q)
      = ∑ h : Fin 1024, a (ix2 p h) * b (ix2 h q) := by
  refine (Ideal.matmul_constant_zero_apply dot_S64x1024_S1024x2048_S64x2048_1_0_0_1_n_n (some .fp32) a b (ix2 p q)).trans ?_
  rw [← Equiv.sum_comp (contrEquiv1 dot_S64x1024_S1024x2048_S64x2048_1_0_0_1_n_n 1024 rfl rfl).symm]
  refine Finset.sum_congr rfl fun h _ => ?_
  have hk := contrEquiv1_symm_val dot_S64x1024_S1024x2048_S64x2048_1_0_0_1_n_n 1024 rfl rfl h
  have el : dot_S64x1024_S1024x2048_S64x2048_1_0_0_1_n_n.lhsIdx (ix2 p q) ((contrEquiv1 dot_S64x1024_S1024x2048_S64x2048_1_0_0_1_n_n 1024 rfl rfl).symm h) = ix2 p h := funext fun c => Fin.ext (by
    match c with
    | ⟨0, _⟩ => exact lhs2_0 _ _
    | ⟨1, _⟩ => exact (lhs2_1 _ _).trans hk)
  have er : dot_S64x1024_S1024x2048_S64x2048_1_0_0_1_n_n.rhsIdx (ix2 p q) ((contrEquiv1 dot_S64x1024_S1024x2048_S64x2048_1_0_0_1_n_n 1024 rfl rfl).symm h) = ix2 h q := funext fun c => Fin.ext (by
    match c with
    | ⟨0, _⟩ => exact (rhs2_0 _ _).trans hk
    | ⟨1, _⟩ => exact rhs2_1 _ _)
  rw [el, er]

/-! ## The payloads -/

/-- The first stored value is the zero block. -/
theorem pay1_apply (i : S1x64x2048.Idx) : k0_pay1 (F := Ideal) i = 0 := by
  unfold k0_pay1
  exact Ideal.ofBits_zero_f32

/-- A projection of the token block by a weight block, at `[t, k]`. -/
theorem proj_apply (x0 : FVec Ideal S1x64x2048 .f32) (w : FVec Ideal S1x2048x1024 .f32)
    (h0 : S1x64x2048.ShapeCasts S64x2048) (h1 : S1x2048x1024.ShapeCasts S2048x1024) (t : Fin 64) (k : Fin 1024) :
    matmul (F := Ideal) dot_S64x2048_S2048x1024_S64x1024_1_0_0_1_n_n (some .fp32) (shapeCast S64x2048 x0 h0) (shapeCast S2048x1024 w h1)
        (constant (F := Ideal) S64x1024 .f32 0x00000000#32) (ix2 t k)
      = ∑ h : Fin 2048, x0 (ix3 (0 : Fin 1) t h) * w (ix3 (0 : Fin 1) h k) := by
  refine (matmul1_apply _ _ t k).trans ?_
  refine Finset.sum_congr rfl fun h _ => ?_
  exact congrArg₂ (· * ·) (dropUnit_apply x0 h0 t h) (dropUnit_apply w h1 h k)

/-- The second stored value at `[0, t, d]`: the block accumulated so far plus this tile's contribution. -/
theorem pay2_apply (x0 : Vec Ideal S1x64x2048 .f32) (x1 x2 : Vec Ideal S1x2048x1024 .f32) (x3 : Vec Ideal S1x1024x2048 .f32) (xo : Vec Ideal S1x64x2048 .f32) (t : Fin 64) (d : Fin 2048) :
    k0_pay2 (F := Ideal) x0 x1 x2 x3 xo (ix3 (0 : Fin 1) t d)
      = xo (ix3 (0 : Fin 1) t d)
        + ∑ k : Fin 1024, ((∑ h : Fin 2048, x0 (ix3 (0 : Fin 1) t h) * x2 (ix3 (0 : Fin 1) h k))
            * ((∑ h : Fin 2048, x0 (ix3 (0 : Fin 1) t h) * x1 (ix3 (0 : Fin 1) h k))
                * Ideal.logistic (∑ h : Fin 2048, x0 (ix3 (0 : Fin 1) t h) * x1 (ix3 (0 : Fin 1) h k))))
          * x3 (ix3 (0 : Fin 1) k d) := by
  unfold k0_pay2
  -- the stored block at [0, t, d] is the sum's matrix at [t, d]
  refine (addUnit_apply _ _ t d).trans ?_
  refine (addf_apply _ _ (ix2 t d)).trans ?_
  refine congrArg₂ (· + ·) (dropUnit_apply xo _ t d) ?_
  -- the last contraction, term by term
  refine (matmul2_apply _ _ t d).trans ?_
  refine Finset.sum_congr rfl fun k _ => ?_
  refine congrArg₂ (· * ·) ?_ (dropUnit_apply x3 _ k d)
  -- the gated activation: up · (gate · σ(gate))
  refine (mulf_apply _ _ (ix2 t k)).trans ?_
  refine congrArg₂ (· * ·) (proj_apply x0 x2 _ _ t k) ?_
  refine (mulf_apply _ _ (ix2 t k)).trans ?_
  refine congrArg₂ (· * ·) (proj_apply x0 x1 _ _ t k) ?_
  exact congrArg Ideal.logistic (proj_apply x0 x1 _ _ t k)

end Cert.KernelIdeal.PayloadValue

end
-- ==== Proof.KIdealValue.lean ====
import proofs.«159379_j64244120814198_2_alg».proof.Proof.KIdealFrame
import proofs.«159379_j64244120814198_2_alg».proof.Proof.MoeSpec
import proofs.«159379_j64244120814198_2_alg».proof.Proof.KernelPayload
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.MoeSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the runs leave, as the body's result block -/

section Pieces
variable {F : FTy → Type} [FloatOps F]
local notation "𝕄" => MT nD τ sig Unit (Elt F) ℕ (UR sig nD τ) ℕ
theorem zero3 : (![0, 0, 0] : Fin 3 → Nat) = fun _ => 0 := by
  funext a; match a with | ⟨0, _⟩ => rfl | ⟨1, _⟩ => rfl | ⟨2, _⟩ => rfl

/-- A later run leaves the body's result block computed from the four input blocks and the running accumulator. -/
theorem outLater_eq (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : ¬isFirstTile i)
    (x0 : Vec F S1x64x2048 .f32) (x1 : Vec F S1x2048x1024 .f32) (x2 : Vec F S1x2048x1024 .f32) (x3 : Vec F S1x1024x2048 .f32) (xo : Vec F S1x64x2048 .f32) :
    outLater c i arg2 harg2 arg3 harg3 arg4 harg4 arg5 harg5 arg6 harg6 hc0 x0 x1 x2 x3 xo = k0_pay2 x0 x1 x2 x3 xo := by
  unfold outLater
  rw [View.read_writes_junk_eq_canon]
  unfold kernelRunLater
  dsimp only
  rw [View.canon_unit_zero zero3]
  simp only [View.readAt_eq_ld, harg2.read_unread, harg3.read_unread, harg4.read_unread, harg5.read_unread, harg6.read_unread,
    View.ld_unit_zero (S := S1x64x2048) zero3, View.ld_unit_zero (S := S1x2048x1024) zero3, View.ld_unit_zero (S := S1x1024x2048) zero3]

/-- The opening run leaves the same result block computed over the zero block it has just stored. -/
theorem outFirst_eq (c : Dev nD) (i : grid0.Coords) (arg2 : Memref sig .tc .vmem S1x64x2048 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x1024x2048 .f32) (harg5 : arg5.IsWhole)
    (arg6 : Memref sig .tc .vmem S1x64x2048 .f32) (harg6 : arg6.IsWhole) (hc0 : isFirstTile i)
    (x0 : Vec F S1x64x2048 .f32) (x1 : Vec F S1x2048x1024 .f32) (x2 : Vec F S1x2048x1024 .f32) (x3 : Vec F S1x1024x2048 .f32) :
    outFirst c i arg2 harg2 arg3 harg3 arg4 harg4 arg5 harg5 arg6 harg6 hc0 x0 x1 x2 x3 = k0_pay2 x0 x1 x2 x3 (k0_pay1 (F := F)) := by
  unfold outFirst
  rw [View.read_writes_junk_eq_canon]
  unfold kernelRunFirst
  dsimp only
  sl_unfold_words
  rw [View.canon_cons_unit_zero zero3, View.readCov_unit_zero _ zero3]
  simp only [View.readAt_eq_ld, harg2.read_unread, harg3.read_unread, harg4.read_unread, harg5.read_unread,
    View.ld_unit_zero (S := S1x64x2048) zero3, View.ld_unit_zero (S := S1x2048x1024) zero3, View.ld_unit_zero (S := S1x1024x2048) zero3]

end Pieces

/-! ## One grid point's step, over the whole arrays -/

section Step

variable (hid : SHid.Idx → EReal) (gu : SGu.Idx → EReal) (dn : SDn.Idx → EReal)

/-- If the four input blocks are the parts of the arrays that expert `e`'s tile `b` reads — all of `hid[e]`, columns
    `1024 b …` of the gate half and of the up half of `gu[e]`, rows `1024 b …` of `dn[e]` — the body's result block is the
    accumulator plus that tile's contribution, element by element. -/
theorem step_apply (e : Fin 16) (b : Fin 4)
    (x0 : Vec Ideal S1x64x2048 .f32) (x1 x2 : Vec Ideal S1x2048x1024 .f32) (x3 : Vec Ideal S1x1024x2048 .f32) (xo : Vec Ideal S1x64x2048 .f32)
    (h0 : ∀ (t : Fin 64) (h : Fin 2048), x0 (ix3 (0 : Fin 1) t h) = hid (ix3 e t h))
    (h1 : ∀ (h : Fin 2048) (k : Fin 1024), x1 (ix3 (0 : Fin 1) h k) = gu (ix3 e h (gateCol (tileCol b k))))
    (h2 : ∀ (h : Fin 2048) (k : Fin 1024), x2 (ix3 (0 : Fin 1) h k) = gu (ix3 e h (upCol (tileCol b k))))
    (h3 : ∀ (k : Fin 1024) (d : Fin 2048), x3 (ix3 (0 : Fin 1) k d) = dn (ix3 e (tileCol b k) d))
    (t : Fin 64) (d : Fin 2048) :
    k0_pay2 (F := Ideal) x0 x1 x2 x3 xo (ix3 (0 : Fin 1) t d) = xo (ix3 (0 : Fin 1) t d) + tileSum hid gu dn e t d b := by
  rw [Cert.KernelIdeal.PayloadValue.pay2_apply]
  unfold tileSum act proj
  simp only [h0, h1, h2, h3]

end Step

/-! ## The blocks at a grid point, read off the arrays -/

section Blocks

variable (m : (ℓ : Loc nD τ sig) → Buf (Elt Ideal) ℓ) (ρ : Dev nD → PrngReg)

/-- The index maps over the grid walked in order: point `t` is tile `t % 4` of expert `t / 4`; the up window's
    block sits 4 blocks (4096 columns) further along the gate|up array's last axis than the gate window's. -/
theorem idx_facts : ∀ t : Fin cfg0.N,
    (win0_0.index t (0 : Fin 3) = t.val / 4 ∧ win0_0.index t (1 : Fin 3) = 0 ∧ win0_0.index t (2 : Fin 3) = 0)
  ∧ (win0_1.index t (0 : Fin 3) = t.val / 4 ∧ win0_1.index t (1 : Fin 3) = 0 ∧ win0_1.index t (2 : Fin 3) = t.val % 4)
  ∧ (win0_2.index t (0 : Fin 3) = t.val / 4 ∧ win0_2.index t (1 : Fin 3) = 0 ∧ win0_2.index t (2 : Fin 3) = t.val % 4 + 4)
  ∧ (win0_3.index t (0 : Fin 3) = t.val / 4 ∧ win0_3.index t (1 : Fin 3) = t.val % 4 ∧ win0_3.index t (2 : Fin 3) = 0)
  ∧ (win0_4.index t (0 : Fin 3) = t.val / 4 ∧ win0_4.index t (1 : Fin 3) = 0 ∧ win0_4.index t (2 : Fin 3) = 0) :=
  (by decide +kernel : ∀ t : Fin grid0.N, _)

theorem N_lt (t : Fin cfg0.N) : t.val < 64 := lt_of_lt_of_eq t.isLt (show cfg0.N = 64 from N_0)

/-- The expert and the tile of a grid point. -/
abbrev expertOf (t : Fin cfg0.N) : Fin 16 := ⟨t.val / 4, by have := N_lt t; omega⟩
abbrev tileOf (t : Fin cfg0.N) : Fin 4 := ⟨t.val % 4, Nat.mod_lt _ (by decide)⟩

/-- The three argument arrays as the region finds them. -/
abbrev hidA (c : Dev nD) : SHid.Idx → EReal := V m c main_arg0
abbrev guA (c : Dev nD) : SGu.Idx → EReal := V m c main_arg1
abbrev dnA (c : Dev nD) : SDn.Idx → EReal := V m c main_arg2

theorem blk0_apply (c : Dev nD) (t : Fin cfg0.N) (tt : Fin 64) (h : Fin 2048) :
    iblk m c 0 t (ix3 (0 : Fin 1) tt h) = hidA m c (ix3 (expertOf t) tt h) := by
  obtain ⟨⟨e0, e1, e2⟩, -⟩ := idx_facts t
  show V m c main_arg0 (((cfg0.win 0).blk t).view.emb (ix3 (0 : Fin 1) tt h)) = V m c main_arg0 (ix3 (expertOf t) tt h)
  refine congrArg _ (funext fun a => Fin.ext ?_)
  match a with
  | ⟨0, _⟩ => show win0_0.index t (0 : Fin 3) * 1 + 1 * 0 = t.val / 4; omega
  | ⟨1, _⟩ => show win0_0.index t (1 : Fin 3) * 64 + 1 * tt.val = tt.val; omega
  | ⟨2, _⟩ => show win0_0.index t (2 : Fin 3) * 2048 + 1 * h.val = h.val; omega

theorem blk1_apply (c : Dev nD) (t : Fin cfg0.N) (h : Fin 2048) (k : Fin 1024) :
    iblk m c 1 t (ix3 (0 : Fin 1) h k) = guA m c (ix3 (expertOf t) h (gateCol (tileCol (tileOf t) k))) := by
  obtain ⟨-, ⟨e0, e1, e2⟩, -⟩ := idx_facts t
  show V m c main_arg1 (((cfg0.win 1).blk t).view.emb (ix3 (0 : Fin 1) h k)) = V m c main_arg1 (ix3 (expertOf t) h (gateCol (tileCol (tileOf t) k)))
  refine congrArg _ (funext fun a => Fin.ext ?_)
  match a with
  | ⟨0, _⟩ => show win0_1.index t (0 : Fin 3) * 1 + 1 * 0 = t.val / 4; omega
  | ⟨1, _⟩ => show win0_1.index t (1 : Fin 3) * 2048 + 1 * h.val = h.val; omega
  | ⟨2, _⟩ => show win0_1.index t (2 : Fin 3) * 1024 + 1 * k.val = 1024 * (t.val % 4) + k.val; omega

theorem blk2_apply (c : Dev nD) (t : Fin cfg0.N) (h : Fin 2048) (k : Fin 1024) :
    iblk m c 2 t (ix3 (0 : Fin 1) h k) = guA m c (ix3 (expertOf t) h (upCol (tileCol (tileOf t) k))) := by
  obtain ⟨-, -, ⟨e0, e1, e2⟩, -⟩ := idx_facts t
  show V m c main_arg1 (((cfg0.win 2).blk t).view.emb (ix3 (0 : Fin 1) h k)) = V m c main_arg1 (ix3 (expertOf t) h (upCol (tileCol (tileOf t) k)))
  refine congrArg _ (funext fun a => Fin.ext ?_)
  match a with
  | ⟨0, _⟩ => show win0_2.index t (0 : Fin 3) * 1 + 1 * 0 = t.val / 4; omega
  | ⟨1, _⟩ => show win0_2.index t (1 : Fin 3) * 2048 + 1 * h.val = h.val; omega
  | ⟨2, _⟩ => show win0_2.index t (2 : Fin 3) * 1024 + 1 * k.val = 4096 + (1024 * (t.val % 4) + k.val); omega

theorem blk3_apply (c : Dev nD) (t : Fin cfg0.N) (k : Fin 1024) (d : Fin 2048) :
    iblk m c 3 t (ix3 (0 : Fin 1) k d) = dnA m c (ix3 (expertOf t) (tileCol (tileOf t) k) d) := by
  obtain ⟨-, -, -, ⟨e0, e1, e2⟩, -⟩ := idx_facts t
  show V m c main_arg2 (((cfg0.win 3).blk t).view.emb (ix3 (0 : Fin 1) k d)) = V m c main_arg2 (ix3 (expertOf t) (tileCol (tileOf t) k) d)
  refine congrArg _ (funext fun a => Fin.ext ?_)
  match a with
  | ⟨0, _⟩ => show win0_3.index t (0 : Fin 3) * 1 + 1 * 0 = t.val / 4; omega
  | ⟨1, _⟩ => show win0_3.index t (1 : Fin 3) * 1024 + 1 * k.val = 1024 * (t.val % 4) + k.val; omega
  | ⟨2, _⟩ => show win0_3.index t (2 : Fin 3) * 2048 + 1 * d.val = d.val; omega

/-- The body's result block at point `t`, over any accumulator: the accumulator plus the point's tile of its expert. -/
theorem point_step (c : Dev nD) (t : Fin cfg0.N) (xo : Vec Ideal S1x64x2048 .f32) (i : S1x64x2048.Idx) :
    k0_pay2 (F := Ideal) (iblk m c 0 t) (iblk m c 1 t) (iblk m c 2 t) (iblk m c 3 t) xo i
      = xo i + tileSum (hidA m c) (guA m c) (dnA m c) (expertOf t) (i 1) (i 2) (tileOf t) := by
  obtain ⟨z, tt, d, rfl⟩ : ∃ (z : Fin 1) (tt : Fin 64) (d : Fin 2048), i = ix3 z tt d := ⟨i 0, i 1, i 2, eq_ix3 i⟩
  obtain rfl : z = 0 := Subsingleton.elim _ _
  exact step_apply (hidA m c) (guA m c) (dnA m c) (expertOf t) (tileOf t) (iblk m c 0 t) (iblk m c 1 t) (iblk m c 2 t) (iblk m c 3 t) xo
    (blk0_apply m c t) (blk1_apply m c t) (blk2_apply m c t) (blk3_apply m c t) tt d

end Blocks

/-! ## The accumulator at the point that writes it back: the expert's four tiles -/

section Fold

variable (m : (ℓ : Loc nD τ sig) → Buf (Elt Ideal) ℓ) (ρ : Dev nD → PrngReg) (c : Dev nD)

/-- Point `n`'s contribution to its expert's result block (nothing past the grid). -/
def addend (n : ℕ) (i : S1x64x2048.Idx) : EReal :=
  if h : n < cfg0.N then tileSum (hidA m c) (guA m c) (dnA m c) (expertOf ⟨n, h⟩) (i 1) (i 2) (tileOf ⟨n, h⟩) else 0

/-- The result block at a point that opens a reduction, and at a later one over the running accumulator. -/
def openAt (n : ℕ) (h : n < cfg0.N) : Vec Ideal S1x64x2048 .f32 :=
  k0_pay2 (F := Ideal) (iblk m c 0 ⟨n, h⟩) (iblk m c 1 ⟨n, h⟩) (iblk m c 2 ⟨n, h⟩) (iblk m c 3 ⟨n, h⟩) (k0_pay1 (F := Ideal))
def stepAt (n : ℕ) (h : n < cfg0.N) (acc : Vec Ideal S1x64x2048 .f32) : Vec Ideal S1x64x2048 .f32 :=
  k0_pay2 (F := Ideal) (iblk m c 0 ⟨n, h⟩) (iblk m c 1 ⟨n, h⟩) (iblk m c 2 ⟨n, h⟩) (iblk m c 3 ⟨n, h⟩) acc

theorem accAt_open (n : ℕ) (h : n < cfg0.N) (h0 : n % 4 = 0) : accAt m c n h = openAt m c n h :=
  (accAt_first m c ⟨n, h⟩ h0).trans (outFirst_eq c _ _ _ _ _ _ _ _ _ _ _ _ _ _ _ _)

theorem accAt_step (n : ℕ) (h : n + 1 < cfg0.N) (h0 : ¬(n + 1) % 4 = 0) :
    accAt m c (n + 1) h = stepAt m c (n + 1) h (accAt m c n (Nat.lt_of_succ_lt h)) :=
  (accAt_later m c ⟨n + 1, h⟩ h0).trans (outLater_eq c _ _ _ _ _ _ _ _ _ _ _ _ _ _ _ _ _)

theorem openAt_apply (n : ℕ) (h : n < cfg0.N) (i : S1x64x2048.Idx) : openAt m c n h i = 0 + addend m c n i := by
  unfold openAt addend
  rw [dif_pos h]
  refine (point_step m c ⟨n, h⟩ _ i).trans ?_
  rw [Cert.KernelIdeal.PayloadValue.pay1_apply]

theorem stepAt_apply (n : ℕ) (h : n < cfg0.N) (acc : Vec Ideal S1x64x2048 .f32) (i : S1x64x2048.Idx) :
    stepAt m c n h acc i = acc i + addend m c n i := by
  unfold stepAt addend
  rw [dif_pos h]
  exact point_step m c ⟨n, h⟩ acc i

/-- At the last tile of an expert the accumulator is the sum of the expert's four tiles: zero, then one tile added at
    each of the four points. -/
theorem accAt_flush (t : Fin cfg0.N) (h3 : t.val % 4 = 3) (i : S1x64x2048.Idx) :
    accAt m c t.val t.isLt i = ∑ b : Fin 4, tileSum (hidA m c) (guA m c) (dnA m c) (expertOf t) (i 1) (i 2) b := by
  have hN := N_lt t
  have h' : 4 * (t.val / 4) + t.val % 4 < cfg0.N := by rw [Nat.div_add_mod]; exact t.isLt
  refine (congrFun (Pipeline.eq_accAt_of_mod (fun n h => accAt m c n h) 4 (openAt m c) (stepAt m c)
    (fun n h h0 => accAt_open m c n h h0) (fun n h h0 => accAt_step m c n h h0) (by decide) t.val t.isLt h') i).trans ?_
  refine (Pipeline.accAt_add_apply (openAt m c) (stepAt m c) (fun _ => (0 : EReal)) (addend m c) (4 * (t.val / 4)) 3
    (fun h j => openAt_apply m c _ h j) (fun n h acc j _ _ => stepAt_apply m c n h acc j) (t.val % 4) (by omega) h' i).trans ?_
  rw [show t.val % 4 + 1 = 4 by omega, Finset.sum_range, zero_add]
  refine Finset.sum_congr rfl fun b _ => ?_
  have hb : 4 * (t.val / 4) + b.val < cfg0.N := lt_of_lt_of_eq (by have := b.isLt; omega) (show cfg0.N = 64 from N_0).symm
  unfold addend
  rw [dif_pos hb]
  have e1 : expertOf ⟨4 * (t.val / 4) + b.val, hb⟩ = expertOf t := Fin.ext (by show (4 * (t.val / 4) + b.val) / 4 = t.val / 4; have := b.isLt; omega)
  have e2 : tileOf ⟨4 * (t.val / 4) + b.val, hb⟩ = b := Fin.ext (by show (4 * (t.val / 4) + b.val) % 4 = b.val; have := b.isLt; omega)
  rw [e1, e2]

end Fold

/-! ## The result array after the run -/

section Final

variable (m : (ℓ : Loc nD τ sig) → Buf (Elt Ideal) ℓ) (ρ : Dev nD → PrngReg)

/-- The specification's result of the three argument arrays. -/
def result (c : Dev nD) : Buf (Elt Ideal) ((cfg0.win 4).arr.view.loc (c.tc : Thread nD τ)) :=
  Cert.MoeSpec.out (hidA m c) (guA m c) (dnA m c)

/-- What a point that writes the accumulator back writes is its block of the specification's result. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  obtain ⟨-, -, -, -, e0, e1, e2⟩ := idx_facts t
  show (cfg0.win 4).cut (grid0.coords t) ((dats m 0 c).after 4 t) = _
  rw [after4]
  funext j
  show accAt m c t.val t.isLt j = result m c (((cfg0.win 4).blk t).view.emb j)
  rw [accAt_flush m c t h3 j]
  have hemb : ((cfg0.win 4).blk t).view.emb j = (ix3 (expertOf t) (j 1) (j 2) : SHid.Idx) := by
    funext a; apply Fin.ext
    match a with
    | ⟨0, _⟩ => show win0_4.index t (0 : Fin 3) * 1 + 1 * (j 0).val = t.val / 4; have hj : (j 0).val < 1 := (j 0).isLt; omega
    | ⟨1, _⟩ => show win0_4.index t (1 : Fin 3) * 64 + 1 * (j 1).val = (j 1).val; omega
    | ⟨2, _⟩ => show win0_4.index t (2 : Fin 3) * 2048 + 1 * (j 2).val = (j 2).val; omega
  rw [hemb]
  unfold result
  rw [out_tiles]

/-- An index of the result array is in point `t`'s block iff each coordinate is in the block's range. -/
theorem mem_blk4 (t : Fin cfg0.N) (i : S16x64x2048.Idx) :
    i ∈ ((cfg0.win 4).blk t).view.set ↔ ∀ a : Fin 3, win0_4.index t a * S1x64x2048.size a ≤ (i a).val ∧ (i a).val < win0_4.index t a * S1x64x2048.size a + S1x64x2048.size a := by
  show i ∈ ((View.whole main_v0).slice (win0_4.rect t)).set ↔ _
  rw [View.set_slice_whole, Rect.mem_set_unit]
  exact Iff.rfl

/-- Every element of the result array is written back: element `[e, ·, ·]` by expert `e`'s last point. -/
theorem covered (i : S16x64x2048.Idx) : ∃ t : Fin cfg0.N, (cfg0.win 4).flush t = true ∧ i ∈ ((cfg0.win 4).blk t).view.set := by
  have hi0 : (i 0).val < 16 := (i 0).isLt
  have hi1 : (i 1).val < 64 := (i 1).isLt
  have hi2 : (i 2).val < 2048 := (i 2).isLt
  have ht : 4 * (i 0).val + 3 < cfg0.N := lt_of_lt_of_eq (by omega) (show cfg0.N = 64 from N_0).symm
  obtain ⟨-, -, -, -, e0, e1, e2⟩ := idx_facts ⟨4 * (i 0).val + 3, ht⟩
  have e0' : win0_4.index ⟨4 * (i 0).val + 3, ht⟩ (0 : Fin 3) = (4 * (i 0).val + 3) / 4 := e0
  refine ⟨⟨4 * (i 0).val + 3, ht⟩, (flush0_4 _).mpr (by show (4 * (i 0).val + 3) % 4 = 3; omega), ?_⟩
  rw [mem_blk4]
  intro a
  match a with
  | ⟨0, _⟩ => show win0_4.index ⟨4 * (i 0).val + 3, ht⟩ (0 : Fin 3) * 1 ≤ (i 0).val ∧ (i 0).val < win0_4.index ⟨4 * (i 0).val + 3, ht⟩ (0 : Fin 3) * 1 + 1; omega
  | ⟨1, _⟩ => show win0_4.index ⟨4 * (i 0).val + 3, ht⟩ (1 : Fin 3) * 64 ≤ (i 1).val ∧ (i 1).val < win0_4.index ⟨4 * (i 0).val + 3, ht⟩ (1 : Fin 3) * 64 + 64; omega
  | ⟨2, _⟩ => show win0_4.index ⟨4 * (i 0).val + 3, ht⟩ (2 : Fin 3) * 2048 ≤ (i 2).val ∧ (i 2).val < win0_4.index ⟨4 * (i 0).val + 3, ht⟩ (2 : Fin 3) * 2048 + 2048; omega

/-- The result array ends holding the specification's result. -/
theorem final (c : Dev nD) : (dats m 0 c).arrAt 4 cfg0.N = result m c :=
  (dats m 0 c).arrAt_eq_of_cover 4 (result m c) (fun t hf => flushed_eq m c t hf) covered

/-- The run, read: the result array at the specification's result of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c) 4).trans (final m c),
     ((h c) 0).trans (((dats m 0 c).arrAt_in 0 rfl _).trans (A_eq m c 0)),
     ((h c) 1).trans (((dats m 0 c).arrAt_in 1 rfl _).trans (A_eq m c 1)),
     ((h c) 3).trans (((dats m 0 c).arrAt_in 3 rfl _).trans (A_eq m c 3))⟩) (run_main m ρ)

end Final

end Cert.KernelIdeal.Hand

end
-- ==== Proof.RefIsSpec.lean ====
/-
  The reference program computes the specification's function.

  Read element by element, the reference is: the first contraction `∑ h, hid[e,t,h] · gu[e,h,c]`; its columns
  `0 … 4095` (the gate) and `4096 … 8191` (the up value); `gate · (1 / (1 + e^(-gate)))`; the product with the up value;
  the second contraction against `dn` over the 4096 intermediate columns. Each stage is the specification's term of the
  same name once the index functions are identified and `1 / (1 + e^(-x))` is read as the logistic function.
-/
import proofs.«159379_j64244120814198_2_alg».proof.Proof.Gen.ReferenceIdeal.Read
import proofs.«159379_j64244120814198_2_alg».proof.Proof.MoeSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.MoeSpec Idealize.ShloMosaic Idealize.ShloMosaic.ValueIdx

/-- The single-precision word `0x3F800000` is the number one. -/
theorem ofBits_one : Ideal.ofBits .f32 0x3F800000#32 = 1 := by
  simp [Ideal.ofBits, Ideal.ieee, -EReal.coe_mul]; norm_num

/-! ## The index functions, on coordinates -/

theorem lidx_v5 (e : Fin 16) (t : Fin 64) (d : Fin 2048) (k : Fin 4096) :
    lidx_main_v5 (ix3 e t d) k = ix3 e t k :=
  funext fun a => Fin.ext (by match a with | ⟨0, _⟩ => rfl | ⟨1, _⟩ => rfl | ⟨2, _⟩ => rfl)

theorem ridx_v5 (e : Fin 16) (t : Fin 64) (d : Fin 2048) (k : Fin 4096) :
    ridx_main_v5 (ix3 e t d) k = ix3 e k d :=
  funext fun a => Fin.ext (by match a with | ⟨0, _⟩ => rfl | ⟨1, _⟩ => rfl | ⟨2, _⟩ => rfl)

theorem idx_v1 (e : Fin 16) (t : Fin 64) (k : Fin 4096) :
    idx_main_v1 (ix3 e t k) = ix3 e t (gateCol k) :=
  funext fun a => Fin.ext (by match a with | ⟨0, _⟩ => rfl | ⟨1, _⟩ => rfl | ⟨2, _⟩ => rfl)

theorem idx_v2 (e : Fin 16) (t : Fin 64) (k : Fin 4096) :
    idx_main_v2 (ix3 e t k) = ix3 e t (upCol k) :=
  funext fun a => Fin.ext (by match a with | ⟨0, _⟩ => rfl | ⟨1, _⟩ => rfl | ⟨2, _⟩ => rfl)

theorem lidx_v0 (e : Fin 16) (t : Fin 64) (c : Fin 8192) (h : Fin 2048) :
    lidx_main_v0 (ix3 e t c) h = ix3 e t h :=
  funext fun a => Fin.ext (by match a with | ⟨0, _⟩ => rfl | ⟨1, _⟩ => rfl | ⟨2, _⟩ => rfl)

theorem ridx_v0 (e : Fin 16) (t : Fin 64) (c : Fin 8192) (h : Fin 2048) :
    ridx_main_v0 (ix3 e t c) h = ix3 e h c :=
  funext fun a => Fin.ext (by match a with | ⟨0, _⟩ => rfl | ⟨1, _⟩ => rfl | ⟨2, _⟩ => rfl)

/-! ## The stages -/

section Stages

variable (x0 : (⟨S16x64x2048, .f32⟩ : BufTy).Contents (Elt Ideal))
  (x1 : (⟨S16x2048x8192, .f32⟩ : BufTy).Contents (Elt Ideal))

/-- The first contraction, at `[e, t, c]`, is the projection's column `c`. -/
theorem v0_at (e : Fin 16) (t : Fin 64) (c : Fin 8192) :
    val_main_v0 (F := Ideal) x0 x1 (ix3 e t c) = proj x0 x1 e t c := by
  rw [val_main_v0_apply]
  unfold proj
  refine Finset.sum_congr rfl fun h _ => ?_
  rw [lidx_v0, ridx_v0]

/-- The product of the up value with `gate · (1 / (1 + e^(-gate)))`, at `[e, t, k]`, is the gated activation. -/
theorem v4_at (e : Fin 16) (t : Fin 64) (k : Fin 4096) :
    val_main_v4 (F := Ideal) x0 x1 (ix3 e t k) = act x0 x1 e t k := by
  rw [val_main_v4_apply, val_main_v2_apply, val_main_v3_apply, val_main_v1_apply, val_main_call0_v5_apply,
    val_main_call0_v4_apply, val_main_call0_cst_0_apply, val_main_call0_v3_apply, val_main_call0_v2_apply,
    val_main_call0_cst_apply, val_main_call0_v1_apply, val_main_call0_v0_apply, val_main_v1_apply, idx_v1, idx_v2,
    v0_at, v0_at]
  -- both literals are the number one, and `1 / (1 + e^(-x))` is the logistic function by definition
  rw [Ideal.ofBits_def, ofBits_one]
  rfl

end Stages

/-- The reference's result is the specification's `out`: the second contraction, term by term, is the gated activation
    times `dn`, summed over the 4096 intermediate columns. -/
theorem ref_is_spec (x0 : (⟨Cert.ReferenceIdeal.S16x64x2048, .f32⟩ : BufTy).Contents (Elt Ideal)) (x1 : (⟨Cert.ReferenceIdeal.S16x2048x8192, .f32⟩ : BufTy).Contents (Elt Ideal)) (x2 : (⟨Cert.ReferenceIdeal.S16x4096x2048, .f32⟩ : BufTy).Contents (Elt Ideal)) :
    Cert.ReferenceIdeal.Read.val_main_v5 (F := Ideal) x0 x1 x2 = Cert.MoeSpec.out x0 x1 x2 := by
  funext i
  obtain ⟨e, t, d, rfl⟩ : ∃ e t d, i = ix3 e t d := ⟨i 0, i 1, i 2, eq_ix3 i⟩
  rw [val_main_v5_apply]
  show _ = ∑ k : Fin 4096, act x0 x1 e t k * x2 (ix3 e k d)
  refine Finset.sum_congr rfl fun k _ => ?_
  rw [lidx_v5, ridx_v5, v4_at]

end Cert.ReferenceIdeal.RefValue

end
-- ==== Proof.lean ====
/-
  The certificate of the gated expert kernel against its reference.

  Both programs compute, per expert `e`, token `t` and hidden coordinate `d`,
  `out[e,t,d] = ∑ i < 4096, up[e,t,i] · (gate[e,t,i] · σ(gate[e,t,i])) · dn[e,i,d]` with `gate` and `up` the two halves of
  `hid[e] · gu[e]` and `σ x = 1 / (1 + e^(-x))` (Proof/MoeSpec.lean). The reference computes it in one piece
  (Proof/RefIsSpec.lean over its run read back). The kernel walks a 16 × 4 grid: at expert `e`'s tile `b` it adds the
  tile's 1024 intermediate columns' contribution to an accumulator it zeroed at tile 0 and that is written back after
  tile 3 (Proof/KernelPayload.lean: the body's arithmetic at an index; Proof/KIdealValue.lean: the four tiles summed,
  the blocks read off the arrays, the result array); on the extended reals the sum over 4096 columns is the sum of the
  four tiles' sums, addition being commutative and associative there — no finiteness is used. The kernel's two windows
  on the gate|up array hold it at the two halves of its full share (Proof/KIdealFrame.lean, Proof/KBitsFrame.lean:
  the frames, at any float instance). The idealization rewrote nothing, so `preserves` is trivial.
-/
import proofs.«159379_j64244120814198_2_alg».proof.Defs
import proofs.«159379_j64244120814198_2_alg».proof.Proof.Gen.Kernel
import proofs.«159379_j64244120814198_2_alg».proof.Proof.Gen.KernelIdeal
import proofs.«159379_j64244120814198_2_alg».proof.Proof.Gen.ReferenceIdeal
import proofs.«159379_j64244120814198_2_alg».proof.Proof.Gen.Pre_finite_inputs
import proofs.«159379_j64244120814198_2_alg».proof.Proof.Gen.ReferenceIdeal.Run
import proofs.«159379_j64244120814198_2_alg».proof.Proof.Gen.ReferenceIdeal.Read
import proofs.«159379_j64244120814198_2_alg».proof.Proof.KBitsFrame
import proofs.«159379_j64244120814198_2_alg».proof.Proof.KIdealValue
import proofs.«159379_j64244120814198_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched: an input window's array is never
    written. -/
theorem frame_k : Cert.frame_Kernel := fun m ρ _ =>
  (θ_run Cert.Kernel.defs _ _).mono (fun _ h c =>
    ⟨((h c) 0).trans (((Cert.Kernel.Hand.dats m 0 c).arrAt_in 0 rfl _).trans (Cert.Kernel.Hand.A_eq m c 0)),
     ((h c) 1).trans (((Cert.Kernel.Hand.dats m 0 c).arrAt_in 1 rfl _).trans (Cert.Kernel.Hand.A_eq m c 1)),
     ((h c) 3).trans (((Cert.Kernel.Hand.dats m 0 c).arrAt_in 3 rfl _).trans (Cert.Kernel.Hand.A_eq m c 3))⟩)
    (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run m ρ)

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with the same result array: the
    specification's result of the arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_is_spec, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
